-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x15x256x256 : Shape := ⟨4, ![16, 15, 256, 256]⟩
abbrev S_ : Shape := ⟨0, ![]⟩

class Facts : Prop where
  bcast_S_S16x15x256x256 : S_.BroadcastsInDim S16x15x256x256 (![] : Fin 0 → Fin S16x15x256x256.rank)
  reducesTo_S16x15x256x256_S_d0_1_2_3 : S16x15x256x256.ReducesTo [0, 1, 2, 3] S_
  h_S_ : 0 < S_.numel

variable [Facts]

def fn {F : FTy → Type} [FloatOps F] (main_arg0 : FVec F S16x15x256x256 .f32) (main_arg1 : FVec F S16x15x256x256 .f32) (main_arg2 : FVec F S16x15x256x256 .f32) : IVec S_ 1 :=
  let main_v0 : FVec F S16x15x256x256 .f32 := Host.absf main_arg0
  let main_cst : FVec F S_ .f32 := constant S_ .f32 0x7F800000#32
  let main_v1 : FVec F S16x15x256x256 .f32 := broadcastInDim S16x15x256x256 ![] bcast_S_S16x15x256x256 main_cst
  let main_v2 : IVec S16x15x256x256 1 := cmpf .olt main_v0 main_v1
  let main_c : IVec S_ 1 := constantI S_ 1 1#1
  let main_v3 : IVec S_ 1 := (fun x v => Host.reduce IntOp.andi x v reducesTo_S16x15x256x256_S_d0_1_2_3 h_S_) main_v2 main_c
  let main_v4 : FVec F S16x15x256x256 .f32 := Host.absf main_arg1
  let main_cst_0 : FVec F S_ .f32 := constant S_ .f32 0x7F800000#32
  let main_v5 : FVec F S16x15x256x256 .f32 := broadcastInDim S16x15x256x256 ![] bcast_S_S16x15x256x256 main_cst_0
  let main_v6 : IVec S16x15x256x256 1 := cmpf .olt main_v4 main_v5
  let main_c_1 : IVec S_ 1 := constantI S_ 1 1#1
  let main_v7 : IVec S_ 1 := (fun x v => Host.reduce IntOp.andi x v reducesTo_S16x15x256x256_S_d0_1_2_3 h_S_) main_v6 main_c_1
  let main_v8 : IVec S_ 1 := andi main_v3 main_v7
  let main_v9 : FVec F S16x15x256x256 .f32 := Host.absf main_arg2
  let main_cst_2 : FVec F S_ .f32 := constant S_ .f32 0x7F800000#32
  let main_v10 : FVec F S16x15x256x256 .f32 := broadcastInDim S16x15x256x256 ![] bcast_S_S16x15x256x256 main_cst_2
  let main_v11 : IVec S16x15x256x256 1 := cmpf .olt main_v9 main_v10
  let main_c_3 : IVec S_ 1 := constantI S_ 1 1#1
  let main_v12 : IVec S_ 1 := (fun x v => Host.reduce IntOp.andi x v reducesTo_S16x15x256x256_S_d0_1_2_3 h_S_) main_v11 main_c_3
  let main_v13 : IVec S_ 1 := andi main_v8 main_v12
  main_v13
-- ==== Kernel.lean ====
abbrev S16x15x256x256 : Shape := ⟨4, ![16, 15, 256, 256]⟩
abbrev S61440x256 : Shape := ⟨2, ![61440, 256]⟩
abbrev S2x8x128 : Shape := ⟨3, ![2, 8, 128]⟩
abbrev S2048x256 : Shape := ⟨2, ![2048, 256]⟩
abbrev S1x8x128 : Shape := ⟨3, ![1, 8, 128]⟩
abbrev S1x1 : Shape := ⟨2, ![1, 1]⟩
abbrev S2048 : Shape := ⟨1, ![2048]⟩
abbrev S2048x1 : Shape := ⟨2, ![2048, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 25
  | .vmem => 12
  | .smem => 0
  | _ => 0

abbrev bufTy : (tb : Table) → Fin (tcTables nBuf tb) → BufTy
  | .hbm, ⟨0, _⟩ => ⟨S16x15x256x256, .f32⟩
  | .hbm, ⟨1, _⟩ => ⟨S16x15x256x256, .f32⟩
  | .hbm, ⟨2, _⟩ => ⟨S16x15x256x256, .f32⟩
  | .hbm, ⟨3, _⟩ => ⟨S61440x256, .f32⟩
  | .hbm, ⟨4, _⟩ => ⟨S61440x256, .f32⟩
  | .hbm, ⟨5, _⟩ => ⟨S61440x256, .f32⟩
  | .hbm, ⟨6, _⟩ => ⟨S2x8x128, .f32⟩
  | .hbm, ⟨7, _⟩ => ⟨S2x8x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S2x1x1, .f32⟩
  | .hbm, ⟨13, _⟩ => ⟨S2, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x1, .f32⟩
  | .local _ .vmem, ⟨11, _⟩ => ⟨S1x1, .f32⟩
  | _, _ => ⟨S16x15x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 15], ![false, false]⟩

def k0_cond2 (i : grid0.Coords) : BitVec 1 :=
  let arg1 : BitVec 32 := BitVec.ofNat 32 (i 1).val
  let c14_i32 : BitVec 32 := 14#32
  let v34 : BitVec 1 := Scalar.cmpi .eq arg1 c14_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.muli arg0 c15_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x15x256x256_S61440x256 : S16x15x256x256.ShapeCasts S61440x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  natLt_1_32 : 1 < 32
  reduces_S2048x256_S2048 : S2048x256.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S61440x256.size a
  hwx0_0 : ∀ i : grid0.Coords, EltTy.bits .f32 = 32 ∨ (Rect.block (s := S61440x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S61440x256.size a
  hwx0_1 : ∀ i : grid0.Coords, EltTy.bits .f32 = 32 ∨ (Rect.block (s := S61440x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S61440x256.size a
  hwx0_2 : ∀ i : grid0.Coords, EltTy.bits .f32 = 32 ∨ (Rect.block (s := S61440x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x15x256x256 : Shape := ⟨4, ![16, 15, 256, 256]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16x15x256x256, .f32⟩
  | .hbm, ⟨1, _⟩ => ⟨S16x15x256x256, .f32⟩
  | .hbm, ⟨2, _⟩ => ⟨S16x15x256x256, .f32⟩
  | .hbm, ⟨3, _⟩ => ⟨S16x15x256x256, .f32⟩
  | .hbm, ⟨4, _⟩ => ⟨S16x15x256x256, .f32⟩
  | .hbm, ⟨5, _⟩ => ⟨S16x15x256x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x15x256x256, .f32⟩
  | .hbm, ⟨10, _⟩ => ⟨S16x15x256x256, .i1⟩
  | .hbm, ⟨11, _⟩ => ⟨S16x15x256x256, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .i32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | _, _ => ⟨S16x15x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_c_2 : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  reducesTo_S16x15x256x256_S_d0_1_2_3 : S16x15x256x256.ReducesTo [0, 1, 2, 3] S_
  h_S_ : 0 < S_.numel
  bcast_S_S16x15x256x256 : S_.BroadcastsInDim S16x15x256x256 (![] : Fin 0 → Fin S16x15x256x256.rank)
  natLt_1_32 : 1 < 32

variable [Facts₀]

class Facts : Prop extends Facts₀ where

variable [Facts]
-- ==== Proof.LibBlockSum.lean ====
/-
  Sums over a range cut into equal blocks, and sums of real numbers among the extended reals.

  A sum over `Fin (A * B)` is the double sum over a block number `a < A` and a position `b < B` inside the block,
  the entry read at `a * B + b`; two such cuts give the three-level form used for rows grouped first by core, then
  by grid step, then by row inside the step's block. The coercion of the reals into the extended reals commutes
  with finite sums, so a sum of 1s and 0s chosen by a predicate is the number of indices where it holds.
-/
import Mathlib.Algebra.BigOperators.Fin
import Mathlib.Algebra.BigOperators.Ring.Finset
import Mathlib.Data.EReal.Basic
import Mathlib.Logic.Equiv.Fin.Basic

namespace Cert.Lib.BlockSum

/-- Position `b` of block `a` lies inside the range. -/
theorem blk_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right _ a.isLt

/-- A sum over `Fin (A * B)` is the sum over blocks of the sums inside each block. -/
theorem sum_fin_blocks {M : Type*} [AddCommMonoid M] (A B : ℕ) (h : Fin (A * B) → M) :
    ∑ x, h x = ∑ a : Fin A, ∑ b : Fin B, h ⟨a.val * B + b.val, blk_lt a b⟩ := by
  rw [← Equiv.sum_comp finProdFinEquiv h, Fintype.sum_prod_type]
  refine Finset.sum_congr rfl fun a _ => Finset.sum_congr rfl fun b _ => congrArg h (Fin.ext ?_)
  show b.val + B * a.val = a.val * B + b.val
  rw [Nat.mul_comm, Nat.add_comm]

/-- The same for a range whose length is given as a number equal to `A * B`. -/
theorem sum_fin_blocks_of_eq {M : Type*} [AddCommMonoid M] {n : ℕ} (A B : ℕ) (hn : A * B = n) (h : Fin n → M) :
    ∑ x, h x = ∑ a : Fin A, ∑ b : Fin B, h ⟨a.val * B + b.val, hn ▸ blk_lt a b⟩ := by
  subst hn
  exact sum_fin_blocks A B h

/-- Row `r` of step `j` of core `p` lies inside the range. -/
theorem row_lt {P J R n : ℕ} (hn : P * J * R = n) (p : Fin P) (j : Fin J) (r : Fin R) :
    (p.val * J + j.val) * R + r.val < n :=
  hn ▸ blk_lt (⟨p.val * J + j.val, blk_lt p j⟩ : Fin (P * J)) r

/-- A sum over `P * J * R` rows, grouped by core `p`, step `j` and row `r` inside the step's block. -/
theorem sum_rows {M : Type*} [AddCommMonoid M] {n : ℕ} (P J R : ℕ) (hn : P * J * R = n) (g : Fin n → M) :
    ∑ x, g x = ∑ p : Fin P, ∑ j : Fin J, ∑ r : Fin R, g ⟨(p.val * J + j.val) * R + r.val, row_lt hn p j r⟩ := by
  rw [sum_fin_blocks_of_eq (P * J) R hn g,
    sum_fin_blocks P J fun t => ∑ r : Fin R, g ⟨t.val * R + r.val, hn ▸ blk_lt t r⟩]

/-- The coercion of the reals into the extended reals commutes with finite sums. -/
theorem coe_sum {ι : Type*} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A sum of 1s (where `p` holds) and 0s (where it does not), among the extended reals, is the number of indices
    where `p` holds. -/
theorem sum_indicator {ι : Type*} [Fintype ι] (p : ι → Prop) [DecidablePred p] :
    ∑ i, (((if p i then 1 else 0 : ℝ)) : EReal) = (((Finset.univ.filter p).card : ℝ) : EReal) := by
  rw [← coe_sum, Finset.sum_boole]

end Cert.Lib.BlockSum
-- ==== Proof.LibIntCount.lean ====
/-
  Counting with 32-bit integers.

  A reduce by integer addition into a result that has one index is the initial value plus the sum of every entry
  of the operand, the sum taken in the ring of words. A sum of the words 1 and 0 chosen by a predicate is the
  number of indices at which the predicate holds, as a word. A word made from a number below 2^31 reads back,
  signed, as that number, and it is the zero word exactly when the number is zero.
-/
import Idealize.ShloMosaic.PureOps.Reduce
import Mathlib.Data.BitVec
import Mathlib.Algebra.BigOperators.Ring.Finset

namespace Cert.Lib.IntCount

open Idealize.ShloMosaic

/-- Folding word addition over a finite set from `b` is `b` plus the sum over the set. -/
theorem fold_addi_eq_sum {ι : Type*} {w : ℕ} (S : Finset ι) (x : ι → BitVec w) (b : BitVec w) :
    S.fold IntOp.addi b x = b + ∑ i ∈ S, x i := by
  induction S using Finset.cons_induction with
  | empty => simp
  | cons a S ha ih =>
    rw [Finset.fold_cons, Finset.sum_cons, ih]
    show x a + (b + _) = b + (x a + _)
    exact add_left_comm _ _ _

/-- A reduce by integer addition into a result with a single index: the initial value plus the sum of all
    entries of the operand. -/
theorem reduce_addi_total {s t u : Shape} {axes : List (Fin s.rank)} [Subsingleton t.Idx] {w : ℕ}
    (x : s.Idx → BitVec w) (init : u.Idx → BitVec w) (h : s.ReducesTo axes t) (hu : 0 < u.numel) (j : t.Idx) :
    Host.reduce IntOp.addi x init h hu j = init (Shape.Idx.first hu) + ∑ i, x i := by
  rw [Host.reduce_eq_fold, Finset.filter_true_of_mem (fun i _ => Subsingleton.elim _ _), fold_addi_eq_sum]

/-- The sum of the words 1 (where `p` holds) and 0 (where it does not) is the number of indices where `p` holds. -/
theorem sum_indicator {ι : Type*} [Fintype ι] (p : ι → Prop) [DecidablePred p] :
    ∑ i, (if p i then (1#32 : BitVec 32) else 0#32) = BitVec.ofNat 32 (Finset.univ.filter p).card := by
  have h := Finset.sum_boole (R := BitVec 32) p Finset.univ
  rw [BitVec.natCast_eq_ofNat] at h
  exact h

/-- A number below 2^31, made a word, reads back signed as itself. -/
theorem toInt_ofNat_small (n : ℕ) (h : n < 2147483648) : (BitVec.ofNat 32 n).toInt = (n : ℤ) := by
  rw [BitVec.toInt_eq_toNat_cond, BitVec.toNat_ofNat]
  have e : n % 2 ^ 32 = n := Nat.mod_eq_of_lt (by omega)
  rw [e]
  split <;> omega

/-- A number below 2^32, made a word, is the zero word exactly when it is zero. -/
theorem ofNat_eq_zero_iff (n : ℕ) (h : n < 4294967296) : BitVec.ofNat 32 n = 0#32 ↔ n = 0 := by
  constructor
  · intro e
    have e' := congrArg BitVec.toNat e
    rw [BitVec.toNat_ofNat, Nat.mod_eq_of_lt (by omega)] at e'
    simpa using e'
  · rintro rfl; rfl

end Cert.Lib.IntCount
-- ==== Proof.Spec.lean ====
/-
  The masked mean absolute error as one function of the three argument arrays.

  For arrays `o`, `a`, `w` over one finite index type the loss is
      (if N = 0 then 0 else L) / (if N = 0 then 1 else N),
  where L = Σ_i |o i - a i| * w i is the weighted absolute error summed over every entry and N is the number of
  entries with a i ≠ 0. Both programs end with this quotient: the kernel holds N as a real number from the start (a
  sum of ones and zeros), the reference counts with 32-bit integers and converts the count at the end; the two agree
  because the count stays below 2^31.
-/
import Idealize.ShloMosaic.PureOps.Ideal
import Idealize.ShloMosaic.PureOps.Ideal.Laws
import Idealize.ShloMosaic.Lib.ValueIdx
import proofs.«160423_j50663434224037_2_alg».proof.Proof.LibBlockSum
import proofs.«160423_j50663434224037_2_alg».proof.Proof.LibIntCount

noncomputable section

namespace Cert.MaskedLoss

open Idealize.ShloMosaic

/-- The shape of a scalar result. -/
abbrev Sc : Shape := ⟨0, ![]⟩

/-- One entry's weighted absolute error `|o - a| * w`, in the operations' own spelling at the extended reals. -/
def err (o a w : EReal) : EReal :=
  FloatOps.mulf (F := Ideal) (φ := .f32)
    (FloatOps.absf (F := Ideal) (φ := .f32) (FloatOps.subf (F := Ideal) (φ := .f32) o a)) w

/-- One where the target entry is nonzero, zero where it is zero. -/
def nz (a : EReal) : EReal := (((if a ≠ 0 then 1 else 0 : ℝ)) : EReal)

/-- The weighted absolute error summed over every entry. -/
def total {ι : Type*} [Fintype ι] (o a w : ι → EReal) : EReal := ∑ i, err (o i) (a i) (w i)

/-- The number of nonzero target entries. -/
def count {ι : Type*} [Fintype ι] (a : ι → EReal) : ℕ := (Finset.univ.filter fun i => a i ≠ 0).card

/-- The ones and zeros add up to the count. -/
theorem sum_nz {ι : Type*} [Fintype ι] (a : ι → EReal) : ∑ i, nz (a i) = ((count a : ℝ) : EReal) :=
  Cert.Lib.BlockSum.sum_indicator _

/-- The loss from the total `L` and the count `N` (a real number): `(N = 0 ? 0 : L) / (N = 0 ? 1 : N)`. -/
def loss (L N : EReal) : FVec Ideal Sc .f32 :=
  Host.divf (F := Ideal)
    (select (cmpf (F := Ideal) .oeq (fun _ => N) (constant (F := Ideal) Sc .f32 0x00000000#32))
      (constant (F := Ideal) Sc .f32 0x00000000#32) (fun _ => L))
    (select (cmpf (F := Ideal) .oeq (fun _ => N) (constant (F := Ideal) Sc .f32 0x00000000#32))
      (constant (F := Ideal) Sc .f32 0x3F800000#32) (fun _ => N))

/-- The word 0x3F800000 is the number one. -/
theorem ofBits_one_f32 : Ideal.ofBits .f32 0x3F800000#32 = 1 := by
  simp [Ideal.ofBits, Ideal.ieee, -EReal.coe_mul]; norm_num

/-- The kernel's indicator: "ordered and not equal to zero", widened to 32 bits and converted, is one or zero. -/
theorem nz_of_one (a : EReal) :
    FloatOps.sitofp (F := Ideal) .f32
      ((FloatOps.cmpf (F := Ideal) (φ := .f32) .one a (FloatOps.ofBits (F := Ideal) .f32 0x00000000#32)).setWidth 32) = nz a := by
  show ((((Ideal.cmp .one a (Ideal.ofBits .f32 0x00000000#32)).setWidth 32).toInt : ℝ) : EReal) = nz a
  rw [Ideal.ofBits_zero_f32]
  unfold nz Ideal.cmp
  by_cases h : a = 0
  · subst h; simp
  · simp [h]

/-- The reference's indicator word: "unordered or not equal to zero", widened to 32 bits, is the word one or zero. -/
theorem word_of_une (a : EReal) :
    (FloatOps.cmpf (F := Ideal) (φ := .f32) .une a (FloatOps.ofBits (F := Ideal) .f32 0x00000000#32)).setWidth 32
      = if a ≠ 0 then 1#32 else 0#32 := by
  show (Ideal.cmp .une a (Ideal.ofBits .f32 0x00000000#32)).setWidth 32 = _
  rw [Ideal.ofBits_zero_f32]
  unfold Ideal.cmp
  by_cases h : a = 0
  · subst h; simp
  · simp [h]

/-- The reference's tail: with the count `K` held as a 32-bit word (`K < 2^31`), selecting on `K == 0` among integers
    and converting afterwards gives the loss of the total and of `K` as a real number. -/
theorem loss_of_word (L : EReal) (K : ℕ) (hK : K < 2147483648) :
    Host.divf (F := Ideal)
      (select (cmpi .eq (fun _ => BitVec.ofNat 32 K) (constantI Sc 32 0#32)) (constant (F := Ideal) Sc .f32 0x00000000#32)
        (fun _ => L))
      (sitofp (F := Ideal) .f32
        (select (cmpi .eq (fun _ => BitVec.ofNat 32 K) (constantI Sc 32 0#32)) (id (constantI Sc 32 1#32))
          (fun _ => BitVec.ofNat 32 K)))
      = loss L ((K : ℝ) : EReal) := by
  funext i
  show Ideal.div (Scalar.select (IntOp.cmpi .eq (BitVec.ofNat 32 K) 0#32) (Ideal.ofBits .f32 0x00000000#32) L)
      ((((Scalar.select (IntOp.cmpi .eq (BitVec.ofNat 32 K) 0#32) 1#32 (BitVec.ofNat 32 K)).toInt : ℝ)) : EReal)
    = Ideal.div (Scalar.select (Ideal.cmp .oeq ((K : ℝ) : EReal) (Ideal.ofBits .f32 0x00000000#32)) (Ideal.ofBits .f32 0x00000000#32) L)
      (Scalar.select (Ideal.cmp .oeq ((K : ℝ) : EReal) (Ideal.ofBits .f32 0x00000000#32)) (Ideal.ofBits .f32 0x3F800000#32) ((K : ℝ) : EReal))
  rw [Ideal.ofBits_zero_f32, ofBits_one_f32]
  by_cases h : K = 0
  · subst h
    have e1 : IntOp.cmpi .eq (BitVec.ofNat 32 0) 0#32 = 1#1 := by decide
    have e2 : Ideal.cmp .oeq (((0 : ℕ) : ℝ) : EReal) 0 = 1#1 := by simp [Ideal.cmp]
    have e3 : (1#32 : BitVec 32).toInt = 1 := by decide
    rw [e1, e2]
    simp only [ValueIdx.select_one, e3]
    simp
  · have hw : BitVec.ofNat 32 K ≠ 0#32 := fun e => h ((Cert.Lib.IntCount.ofNat_eq_zero_iff K (by omega)).1 e)
    have hb : (BitVec.ofNat 32 K == 0#32) = false := beq_eq_false_iff_ne.mpr hw
    have e1 : IntOp.cmpi .eq (BitVec.ofNat 32 K) 0#32 = 0#1 := by
      unfold IntOp.cmpi; rw [hb]; rfl
    have hr : (((K : ℝ)) : EReal) ≠ 0 := by
      intro e; apply h; exact_mod_cast e
    have e2 : Ideal.cmp .oeq ((K : ℝ) : EReal) 0 = 0#1 := by simp [Ideal.cmp, hr, h]
    rw [e1, e2]
    simp only [ValueIdx.select_zero, Cert.Lib.IntCount.toInt_ofNat_small K hK]
    simp

end Cert.MaskedLoss

end
-- ==== Proof.RefValue.lean ====
/-
  The reference's result is the loss of the total and of the count.

  The reference sums `|o - a| * w` over every entry in one reduction (at the ideal values: zero plus the plain sum), and
  counts the nonzero targets with 32-bit integers: it widens each comparison bit to a word and adds the words, which is
  the number of nonzero targets as a word because a sum of at most 15,728,640 ones cannot wrap. Selecting on the count
  being zero among integers and converting afterwards is then the same as selecting among real numbers.
-/
import proofs.«160423_j50663434224037_2_alg».proof.Proof.RefRun
import proofs.«160423_j50663434224037_2_alg».proof.Proof.Spec
import Idealize.ShloMosaic.Lib.Pipeline.Value
import Idealize.ShloMosaic.PureOps.Ideal.Laws

noncomputable section

namespace Cert.ReferenceIdeal.RefValue

open Cert.ReferenceIdeal Cert.ReferenceIdeal.Gen Cert.MaskedLoss Idealize.ShloMosaic

/-- The reference's float reduction is the total of the weighted absolute errors. -/
theorem sum_eq (x0 x1 x2 : FVec Ideal S16x15x256x256 .f32) :
    Host.reduceAdd (F := Ideal) (mulf (Host.absf (subf x0 x1)) x2) (constant (F := Ideal) S_ .f32 0x00000000#32)
        reducesTo_S16x15x256x256_S_d0_1_2_3 h_S_
      = fun _ => total x0 x1 x2 := by
  funext i
  generalize hy : mulf (Host.absf (subf x0 x1)) x2 = y0
  simp only [Host.reduceAdd, Ideal.hostReduceAdd_def]
  refine (Ideal.hostReduceAdd_total reducesTo_S16x15x256x256_S_d0_1_2_3 (fun b => b.elim0) y0 _ i).trans ?_
  subst hy
  show Ideal.ofBits .f32 0x00000000#32 + ∑ j, err (x0 j) (x1 j) (x2 j) = total x0 x1 x2
  rw [Ideal.ofBits_zero_f32, zero_add]
  rfl

/-- The reference's integer reduction is the count of nonzero targets, as a word. -/
theorem count_eq (x1 : FVec Ideal S16x15x256x256 .f32) :
    Host.reduce IntOp.addi
        (extui 32 (cmpf (F := Ideal) .une x1
          (broadcastInDim S16x15x256x256 ![] bcast_S_S16x15x256x256 (constant (F := Ideal) S_ .f32 0x00000000#32))) natLt_1_32)
        (constantI S_ 32 0#32) reducesTo_S16x15x256x256_S_d0_1_2_3 h_S_
      = fun _ => BitVec.ofNat 32 (Cert.MaskedLoss.count x1) := by
  funext i
  haveI : Subsingleton S_.Idx := ⟨fun a b => funext fun d => d.elim0⟩
  rw [Cert.Lib.IntCount.reduce_addi_total]
  show (0#32 : BitVec 32) + ∑ j, _ = _
  rw [BitVec.zero_add]
  unfold Cert.MaskedLoss.count
  rw [← Cert.Lib.IntCount.sum_indicator]
  refine Finset.sum_congr rfl fun j _ => ?_
  show (FloatOps.cmpf (F := Ideal) (φ := .f32) .une (x1 j)
      (broadcastInDim S16x15x256x256 ![] bcast_S_S16x15x256x256 (constant (F := Ideal) S_ .f32 0x00000000#32) j)).setWidth 32 = _
  rw [broadcastInDim_apply _ bcast_S_S16x15x256x256 (constant (F := Ideal) S_ .f32 0x00000000#32) j (fun a => a.elim0)
    (fun a => a.elim0)]
  exact word_of_une (x1 j)

/-- There are fewer than 2^31 entries, so fewer than 2^31 nonzero targets. -/
theorem count_lt (x1 : FVec Ideal S16x15x256x256 .f32) : Cert.MaskedLoss.count x1 < 2147483648 := by
  have h1 : Cert.MaskedLoss.count x1 ≤ Fintype.card S16x15x256x256.Idx := by
    unfold Cert.MaskedLoss.count
    exact (Finset.card_filter_le _ _).trans (le_of_eq Finset.card_univ)
  have h2 : Fintype.card S16x15x256x256.Idx = 15728640 := by
    rw [Shape.card_idx]
    decide
  omega

/-- The reference's result, as the run states it, is the loss of the total and of the count. -/
theorem result_eq (x0 x1 x2 : FVec Ideal S16x15x256x256 .f32) :
    (Host.divf (select (cmpi .eq (Host.reduce IntOp.addi (extui 32 (cmpf .une x1 (broadcastInDim S16x15x256x256 ![] bcast_S_S16x15x256x256 (constant S_ .f32 0x00000000#32))) natLt_1_32) (constantI S_ 32 0#32) reducesTo_S16x15x256x256_S_d0_1_2_3 h_S_) (constantI S_ 32 0#32)) (constant S_ .f32 0x00000000#32) (Host.reduceAdd (mulf (Host.absf (subf x0 x1)) x2) (constant S_ .f32 0x00000000#32) reducesTo_S16x15x256x256_S_d0_1_2_3 h_S_)) (sitofp .f32 (select (cmpi .eq (Host.reduce IntOp.addi (extui 32 (cmpf .une x1 (broadcastInDim S16x15x256x256 ![] bcast_S_S16x15x256x256 (constant S_ .f32 0x00000000#32))) natLt_1_32) (constantI S_ 32 0#32) reducesTo_S16x15x256x256_S_d0_1_2_3 h_S_) (constantI S_ 32 0#32)) (id (constantI S_ 32 1#32)) (Host.reduce IntOp.addi (extui 32 (cmpf .une x1 (broadcastInDim S16x15x256x256 ![] bcast_S_S16x15x256x256 (constant S_ .f32 0x00000000#32))) natLt_1_32) (constantI S_ 32 0#32) reducesTo_S16x15x256x256_S_d0_1_2_3 h_S_))) : FVec Ideal S_ .f32)
      = loss (total x0 x1 x2) ((Cert.MaskedLoss.count x1 : ℝ) : EReal) := by
  rw [sum_eq, count_eq]
  exact loss_of_word _ _ (count_lt x1)

end Cert.ReferenceIdeal.RefValue

end
-- ==== Proof.Steps.lean ====
/-
  What one grid step leaves in the two running sums and in the two result blocks.

  The body adds the step's block sum to the running weighted error (the first scratch cell) and the step's count
  of nonzero targets to the running count (the second scratch cell); at the first step of a core both cells are
  first set to zero, and at the last step of a core both cells are copied into every entry of the core's result
  blocks. Each of these contents is read here as the body's own arithmetic applied to the blocks the step loads.
-/
import proofs.«160423_j50663434224037_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A step that is neither a core's first nor its last -/

/-- The running error after such a step: the cell's contents before it plus the step's block sum. -/
theorem scratchB0 (c : Dev nD) (i : grid0.Coords) (a2 : Memref sig .tc .vmem S2048x256 .f32) (h2 : a2.IsWhole)
    (a3 : Memref sig .tc .vmem S2048x256 .f32) (h3 : a3.IsWhole) (a4 : Memref sig .tc .vmem S2048x256 .f32) (h4 : a4.IsWhole)
    (a5 : Memref sig .tc .vmem S1x8x128 .f32) (h5 : a5.IsWhole) (a6 : Memref sig .tc .vmem S1x8x128 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : ¬cond0_1 i) (x0 x1 x2 : Vec F S2048x256 .f32) (xs0 xs1 : Vec F S1x1 .f32) :
    sout0_B_0 c i a2 h2 a3 h3 a4 h4 a5 h5 a6 h6 a7 h7 a8 h8 hc0 hc1 x0 x1 x2 xs0 xs1 = k0_pay6 x0 x1 x2 xs0 := by
  unfold sout0_B_0
  rw [View.read_writes_eq_canon _ _ _ (scover0_B_0 c i a2 h2 a3 h3 a4 h4 a5 h5 a6 h6 a7 h7 a8 h8 hc0 hc1 x0 x1 x2 xs0 xs1)]
  unfold kernelRun0_B
  dsimp only
  rw [View.canon_unit_zero hz2]
  simp only [View.readAt_eq_ld, h2.read_unread, h3.read_unread, h4.read_unread, h5.read_unread, h6.read_unread, h7.read_unread, h8.read_unread, View.ld_unit_zero (S := S2048x256) hz2, View.ld_unit_zero (S := S1x1) hz2, View.ld_unit_zero (S := S1x8x128) hz3]

/-- The running count after such a step: the cell's contents before it plus the step's count. -/
theorem scratchB1 (c : Dev nD) (i : grid0.Coords) (a2 : Memref sig .tc .vmem S2048x256 .f32) (h2 : a2.IsWhole)
    (a3 : Memref sig .tc .vmem S2048x256 .f32) (h3 : a3.IsWhole) (a4 : Memref sig .tc .vmem S2048x256 .f32) (h4 : a4.IsWhole)
    (a5 : Memref sig .tc .vmem S1x8x128 .f32) (h5 : a5.IsWhole) (a6 : Memref sig .tc .vmem S1x8x128 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : ¬cond0_1 i) (x0 x1 x2 : Vec F S2048x256 .f32) (xs0 xs1 : Vec F S1x1 .f32) :
    sout0_B_1 c i a2 h2 a3 h3 a4 h4 a5 h5 a6 h6 a7 h7 a8 h8 hc0 hc1 x0 x1 x2 xs0 xs1 = k0_pay7 x1 xs1 := by
  unfold sout0_B_1
  rw [View.read_writes_eq_canon _ _ _ (scover0_B_1 c i a2 h2 a3 h3 a4 h4 a5 h5 a6 h6 a7 h7 a8 h8 hc0 hc1 x0 x1 x2 xs0 xs1)]
  unfold kernelRun0_B
  dsimp only
  rw [View.canon_unit_zero hz2]
  simp only [View.readAt_eq_ld, h2.read_unread, h3.read_unread, h4.read_unread, h5.read_unread, h6.read_unread, h7.read_unread, h8.read_unread, View.ld_unit_zero (S := S2048x256) hz2, View.ld_unit_zero (S := S1x1) hz2, View.ld_unit_zero (S := S1x8x128) hz3]

/-! ## A core's last step -/

/-- The running error after a core's last step. -/
theorem scratchC0 (c : Dev nD) (i : grid0.Coords) (a2 : Memref sig .tc .vmem S2048x256 .f32) (h2 : a2.IsWhole)
    (a3 : Memref sig .tc .vmem S2048x256 .f32) (h3 : a3.IsWhole) (a4 : Memref sig .tc .vmem S2048x256 .f32) (h4 : a4.IsWhole)
    (a5 : Memref sig .tc .vmem S1x8x128 .f32) (h5 : a5.IsWhole) (a6 : Memref sig .tc .vmem S1x8x128 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 x2 : Vec F S2048x256 .f32) (xs0 xs1 : Vec F S1x1 .f32) :
    sout0_C_0 c i a2 h2 a3 h3 a4 h4 a5 h5 a6 h6 a7 h7 a8 h8 hc0 hc1 x0 x1 x2 xs0 xs1 = k0_pay6 x0 x1 x2 xs0 := by
  unfold sout0_C_0
  rw [View.read_writes_eq_canon _ _ _ (scover0_C_0 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, View.ld_unit_zero (S := S2048x256) hz2, View.ld_unit_zero (S := S1x1) hz2, View.ld_unit_zero (S := S1x8x128) hz3]

/-- The running count after a core's last step. -/
theorem scratchC1 (c : Dev nD) (i : grid0.Coords) (a2 : Memref sig .tc .vmem S2048x256 .f32) (h2 : a2.IsWhole)
    (a3 : Memref sig .tc .vmem S2048x256 .f32) (h3 : a3.IsWhole) (a4 : Memref sig .tc .vmem S2048x256 .f32) (h4 : a4.IsWhole)
    (a5 : Memref sig .tc .vmem S1x8x128 .f32) (h5 : a5.IsWhole) (a6 : Memref sig .tc .vmem S1x8x128 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 x2 : Vec F S2048x256 .f32) (xs0 xs1 : Vec F S1x1 .f32) :
    sout0_C_1 c i a2 h2 a3 h3 a4 h4 a5 h5 a6 h6 a7 h7 a8 h8 hc0 hc1 x0 x1 x2 xs0 xs1 = k0_pay7 x1 xs1 := by
  unfold sout0_C_1
  rw [View.read_writes_eq_canon _ _ _ (scover0_C_1 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, View.ld_unit_zero (S := S2048x256) hz2, View.ld_unit_zero (S := S1x1) hz2, View.ld_unit_zero (S := S1x8x128) hz3]

/-- The core's block of the first result after its last step: the final running error in every entry. -/
theorem outC3 (c : Dev nD) (i : grid0.Coords) (a2 : Memref sig .tc .vmem S2048x256 .f32) (h2 : a2.IsWhole)
    (a3 : Memref sig .tc .vmem S2048x256 .f32) (h3 : a3.IsWhole) (a4 : Memref sig .tc .vmem S2048x256 .f32) (h4 : a4.IsWhole)
    (a5 : Memref sig .tc .vmem S1x8x128 .f32) (h5 : a5.IsWhole) (a6 : Memref sig .tc .vmem S1x8x128 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 x2 : Vec F S2048x256 .f32) (xs0 xs1 : Vec F S1x1 .f32) :
    out0_C_3 c i a2 h2 a3 h3 a4 h4 a5 h5 a6 h6 a7 h7 a8 h8 hc0 hc1 x0 x1 x2 xs0 xs1 = k0_pay1 (k0_pay6 x0 x1 x2 xs0) := by
  unfold out0_C_3
  rw [View.read_writes_eq_canon _ _ _ (cover0_C_3 c i a2 h2 a3 h3 a4 h4 a5 h5 a6 h6 a7 h7 a8 h8 hc0 hc1 x0 x1 x2 xs0 xs1)]
  unfold kernelRun0_C
  dsimp only
  sl_unfold_words
  rw [View.canon_unit_zero hz3, View.readCov_unit_zero (S := S1x1) _ hz2]
  simp only [View.readAt_eq_ld, h2.read_unread, h3.read_unread, h4.read_unread, h5.read_unread, h6.read_unread, h7.read_unread, h8.read_unread, View.ld_unit_zero (S := S2048x256) hz2, View.ld_unit_zero (S := S1x1) hz2, View.ld_unit_zero (S := S1x8x128) hz3]

/-- The core's block of the second result after its last step: the final running count in every entry. -/
theorem outC4 (c : Dev nD) (i : grid0.Coords) (a2 : Memref sig .tc .vmem S2048x256 .f32) (h2 : a2.IsWhole)
    (a3 : Memref sig .tc .vmem S2048x256 .f32) (h3 : a3.IsWhole) (a4 : Memref sig .tc .vmem S2048x256 .f32) (h4 : a4.IsWhole)
    (a5 : Memref sig .tc .vmem S1x8x128 .f32) (h5 : a5.IsWhole) (a6 : Memref sig .tc .vmem S1x8x128 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 x2 : Vec F S2048x256 .f32) (xs0 xs1 : Vec F S1x1 .f32) :
    out0_C_4 c i a2 h2 a3 h3 a4 h4 a5 h5 a6 h6 a7 h7 a8 h8 hc0 hc1 x0 x1 x2 xs0 xs1 = k0_pay2 (k0_pay7 x1 xs1) := by
  unfold out0_C_4
  rw [View.read_writes_eq_canon _ _ _ (cover0_C_4 c i a2 h2 a3 h3 a4 h4 a5 h5 a6 h6 a7 h7 a8 h8 hc0 hc1 x0 x1 x2 xs0 xs1)]
  unfold kernelRun0_C
  dsimp only
  sl_unfold_words
  rw [View.canon_unit_zero hz3, View.readCov_unit_zero (S := S1x1) _ hz2]
  simp only [View.readAt_eq_ld, h2.read_unread, h3.read_unread, h4.read_unread, h5.read_unread, h6.read_unread, h7.read_unread, h8.read_unread, View.ld_unit_zero (S := S2048x256) hz2, View.ld_unit_zero (S := S1x1) hz2, View.ld_unit_zero (S := S1x8x128) hz3]

/-! ## A core's first step -/

/-- The running error after a core's first step: zero plus the step's block sum. -/
theorem scratchA0 (c : Dev nD) (i : grid0.Coords) (a2 : Memref sig .tc .vmem S2048x256 .f32) (h2 : a2.IsWhole)
    (a3 : Memref sig .tc .vmem S2048x256 .f32) (h3 : a3.IsWhole) (a4 : Memref sig .tc .vmem S2048x256 .f32) (h4 : a4.IsWhole)
    (a5 : Memref sig .tc .vmem S1x8x128 .f32) (h5 : a5.IsWhole) (a6 : Memref sig .tc .vmem S1x8x128 .f32) (h6 : a6.IsWhole)
    (a7 : Memref sig .tc .vmem S1x1 .f32) (h7 : a7.IsWhole) (a8 : Memref sig .tc .vmem S1x1 .f32) (h8 : a8.IsWhole)
    (hc0 : cond0_0 i) (hc1 : ¬cond0_1 i) (x0 x1 x2 : Vec F S2048x256 .f32) :
    sout0_A_0 c i a2 h2 a3 h3 a4 h4 a5 h5 a6 h6 a7 h7 a8 h8 hc0 hc1 x0 x1 x2 = k0_pay6 x0 x1 x2 k0_pay3 := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread, h8.read_unread, View.ld_unit_zero (S := S2048x256) hz2, View.ld_unit_zero (S := S1x1) hz2, View.ld_unit_zero (S := S1x8x128) hz3]

/-- The running count after a core's first step: zero plus the step's count. -/
theorem scratchA1 (c : Dev nD) (i : grid0.Coords) (a2 : Memref sig .tc .vmem S2048x256 .f32) (h2 : a2.IsWhole)
    (a3 : Memref sig .tc .vmem S2048x256 .f32) (h3 : a3.IsWhole) (a4 : Memref sig .tc .vmem S2048x256 .f32) (h4 : a4.IsWhole)
    (a5 : Memref sig .tc .vmem S1x8x128 .f32) (h5 : a5.IsWhole) (a6 : Memref sig .tc .vmem S1x8x128 .f32) (h6 : a6.IsWhole)
    (a7 : Memref sig .tc .vmem S1x1 .f32) (h7 : a7.IsWhole) (a8 : Memref sig .tc .vmem S1x1 .f32) (h8 : a8.IsWhole)
    (hc0 : cond0_0 i) (hc1 : ¬cond0_1 i) (x0 x1 x2 : Vec F S2048x256 .f32) :
    sout0_A_1 c i a2 h2 a3 h3 a4 h4 a5 h5 a6 h6 a7 h7 a8 h8 hc0 hc1 x0 x1 x2 = k0_pay7 x1 k0_pay4 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread, h8.read_unread, View.ld_unit_zero (S := S2048x256) hz2, View.ld_unit_zero (S := S1x1) hz2, View.ld_unit_zero (S := S1x8x128) hz3]

end Cert.KernelIdeal.Steps

end
-- ==== Proof.Running.lean ====
/-
  The two running sums, step by step.

  After a core's first step the running error is zero plus that step's block sum and the running count is zero plus
  that step's count; after any later step each is what the step before left plus the step's own contribution; and
  after a core's last step the core's two result blocks hold the final running error and the final running count in
  every entry.
-/
import proofs.«160423_j50663434224037_2_alg».proof.Proof.Steps

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]
variable (m : (ℓ : Loc nD τ sig) → Buf (Elt F) ℓ)

/-- After a core's first step. -/
theorem step_first (c : Dev nD) (t : Fin cfg0.N) (h0 : t.val % 15 = 0) (h1 : ¬t.val % 15 = 14) :
    (outsAt0 m c t.val t.isLt).2.2.1 = k0_pay6 (iblk m c 0 t) (iblk m c 1 t) (iblk m c 2 t) k0_pay3
    ∧ (outsAt0 m c t.val t.isLt).2.2.2 = k0_pay7 (iblk m c 1 t) k0_pay4 := by
  rw [outsAt0_A m c t h0 h1]
  dsimp only
  exact ⟨scratchA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t),
    scratchA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)⟩

/-- After a step that is neither a core's first nor its last. -/
theorem step_mid (c : Dev nD) (t : Fin cfg0.N) (h0 : ¬t.val % 15 = 0) (h1 : ¬t.val % 15 = 14) :
    (outsAt0 m c t.val t.isLt).2.2.1 = k0_pay6 (iblk m c 0 t) (iblk m c 1 t) (iblk m c 2 t) (outsAt0 m c (t.val - 1) (Nat.lt_of_le_of_lt (Nat.sub_le _ _) t.isLt)).2.2.1
    ∧ (outsAt0 m c t.val t.isLt).2.2.2 = k0_pay7 (iblk m c 1 t) (outsAt0 m c (t.val - 1) (Nat.lt_of_le_of_lt (Nat.sub_le _ _) t.isLt)).2.2.2 := by
  rw [outsAt0_B m c t h0 h1]
  dsimp only
  exact ⟨scratchB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    scratchB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- After a core's last step: the two running sums, and the core's two result blocks. -/
theorem step_last (c : Dev nD) (t : Fin cfg0.N) (h0 : ¬t.val % 15 = 0) (h1 : t.val % 15 = 14) :
    (outsAt0 m c t.val t.isLt).2.2.1 = k0_pay6 (iblk m c 0 t) (iblk m c 1 t) (iblk m c 2 t) (outsAt0 m c (t.val - 1) (Nat.lt_of_le_of_lt (Nat.sub_le _ _) t.isLt)).2.2.1
    ∧ (outsAt0 m c t.val t.isLt).2.2.2 = k0_pay7 (iblk m c 1 t) (outsAt0 m c (t.val - 1) (Nat.lt_of_le_of_lt (Nat.sub_le _ _) t.isLt)).2.2.2
    ∧ (outsAt0 m c t.val t.isLt).1 = k0_pay1 (k0_pay6 (iblk m c 0 t) (iblk m c 1 t) (iblk m c 2 t) (outsAt0 m c (t.val - 1) (Nat.lt_of_le_of_lt (Nat.sub_le _ _) t.isLt)).2.2.1)
    ∧ (outsAt0 m c t.val t.isLt).2.1 = k0_pay2 (k0_pay7 (iblk m c 1 t) (outsAt0 m c (t.val - 1) (Nat.lt_of_le_of_lt (Nat.sub_le _ _) t.isLt)).2.2.2) := by
  rw [outsAt0_C m c t h0 h1]
  dsimp only
  exact ⟨scratchC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    scratchC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    outC3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    outC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2⟩

end Cert.KernelIdeal.Steps

end
-- ==== Proof.Payload.lean ====
/-
  One step's arithmetic at the ideal values.

  For the blocks `o`, `a`, `w` a step loads (2048 rows of 256 entries), the body sums `|o - a| * w` along each row, then
  down the rows, and adds the result to the running error; it sums the indicator of `a ≠ 0` the same way and adds that to
  the running count. Over the extended reals a sum along an axis is a plain finite sum, so each cell after the step is
  the cell before it plus a double sum over the block's rows and columns; the zeroing stores hold zero, and the final
  broadcasts hold the cell's one entry everywhere.
-/
import proofs.«160423_j50663434224037_2_alg».proof.Proof.Gen.KernelIdeal.Skeleton
import proofs.«160423_j50663434224037_2_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Cert.MaskedLoss Idealize.ShloMosaic Idealize.ShloMosaic.ValueIdx

/-- The sum along a row: entry `r` of the row sums is the sum of row `r`'s 256 entries. -/
theorem sum_lanes (v : FVec Ideal S2048x256 .f32) (h : S2048x256.Reduces [1] S2048) (hφ : FKind.Formats .f32)
    (hacc : (0x00000000#32 : BitVec 32) = 0x00000000#32) (r : Fin 2048) :
    multiReduction (F := Ideal) .add [1] S2048 v 0x00000000#32 h hφ hacc (ix1 r) = ∑ c : Fin 256, v (ix2 r c) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- The sum down a column of 2048 entries. -/
theorem sum_column (v : FVec Ideal S2048x1 .f32) (h : S2048x1.Reduces [0] S1) (hφ : FKind.Formats .f32)
    (hacc : (0x00000000#32 : BitVec 32) = 0x00000000#32) :
    multiReduction (F := Ideal) .add [0] S1 v 0x00000000#32 h hφ hacc (ix1 (0 : Fin 1)) = ∑ r : Fin 2048, v (ix2 r (0 : Fin 1)) := by
  refine (Ideal.multiReduction_add_single v 0x00000000#32 h hφ hacc (ix1 (0 : Fin 1))).trans ?_
  refine Finset.sum_congr rfl fun k _ => congrArg v ?_
  funext a
  match a with
  | ⟨0, _⟩ => rfl
  | ⟨1, _⟩ => rfl

/-- A vector of 2048 entries viewed as a column: entry `(r, 0)` is entry `r`. -/
theorem column_apply (v : FVec Ideal S2048 .f32) (h : S2048.ShapeCasts S2048x1) (r : Fin 2048) :
    shapeCast S2048x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- A vector of one entry viewed as a 1×1 cell. -/
theorem cell_apply (v : FVec Ideal S1 .f32) (h : S1.ShapeCasts S1x1) (y : S1x1.Idx) :
    shapeCast S1x1 v h y = v (ix1 (0 : Fin 1)) :=
  shapeCast_apply v h y (ix1 (0 : Fin 1)) (by
    rw [Shape.rowMajor_val_one, Shape.rowMajor_val_two]
    have h0 : (y 0).val < 1 := idx2_lt0 y
    have h1 : (y 1).val < 1 := idx2_lt1 y
    show 0 = (y 0).val * 1 + (y 1).val
    omega)

/-- The weighted absolute error summed over one block. -/
def blockErr (x0 x1 x2 : FVec Ideal S2048x256 .f32) : EReal :=
  ∑ r : Fin 2048, ∑ c : Fin 256, err (x0 (ix2 r c)) (x1 (ix2 r c)) (x2 (ix2 r c))

/-- The number of nonzero target entries of one block, as a sum of ones and zeros. -/
def blockCount (x1 : FVec Ideal S2048x256 .f32) : EReal :=
  ∑ r : Fin 2048, ∑ c : Fin 256, nz (x1 (ix2 r c))

/-- The running error after a step: the cell before it plus the block's weighted error. -/
theorem pay6_apply (x0 x1 x2 : FVec Ideal S2048x256 .f32) (acc : FVec Ideal S1x1 .f32) (y : S1x1.Idx) :
    k0_pay6 (F := Ideal) x0 x1 x2 acc y = acc y + blockErr x0 x1 x2 := by
  unfold k0_pay6 k0_pay5
  simp only [shapeCast_self]
  refine (addf_apply acc _ y).trans ?_
  refine congrArg (fun z => acc y + z) ?_
  refine (cell_apply _ _ y).trans ?_
  refine (sum_column _ _ _ _).trans ?_
  refine Finset.sum_congr rfl fun r _ => ?_
  refine (column_apply _ _ r).trans ?_
  refine (sum_lanes _ _ _ _ r).trans ?_
  rfl

/-- The running count after a step: the cell before it plus the block's count. -/
theorem pay7_apply (x1 : FVec Ideal S2048x256 .f32) (acc : FVec Ideal S1x1 .f32) (y : S1x1.Idx) :
    k0_pay7 (F := Ideal) x1 acc y = acc y + blockCount x1 := by
  unfold k0_pay7 k0_pay5
  simp only [shapeCast_self]
  refine (addf_apply acc _ y).trans ?_
  refine congrArg (fun z => acc y + z) ?_
  refine (cell_apply _ _ y).trans ?_
  refine (sum_column _ _ _ _).trans ?_
  refine Finset.sum_congr rfl fun r _ => ?_
  refine (column_apply _ _ r).trans ?_
  refine (sum_lanes _ _ _ _ r).trans ?_
  refine Finset.sum_congr rfl fun c _ => ?_
  exact nz_of_one (x1 (ix2 r c))

/-- The zeroing stores hold zero. -/
theorem pay3_apply (y : S1x1.Idx) : k0_pay3 (F := Ideal) y = 0 := by
  unfold k0_pay3
  simp only [shapeCast_self]
  exact Ideal.ofBits_zero_f32

theorem pay4_apply (y : S1x1.Idx) : k0_pay4 (F := Ideal) y = 0 := by
  unfold k0_pay4
  simp only [shapeCast_self]
  exact Ideal.ofBits_zero_f32

/-- The copy into the first result's block: every entry is the cell's one entry. -/
theorem pay1_apply (v : FVec Ideal S1x1 .f32) (j : S1x8x128.Idx) :
    k0_pay1 (F := Ideal) v j = v (ix2 (0 : Fin 1) (0 : Fin 1)) := by
  unfold k0_pay1
  refine (broadcastTo_apply _ _ j (ix3 (0 : Fin 1) (0 : Fin 1) (0 : Fin 1)) (fun a => ?_)).trans ?_
  · match a with
    | ⟨0, _⟩ => rfl
    | ⟨1, _⟩ => rfl
    | ⟨2, _⟩ => rfl
  · exact shapeCast_apply _ _ _ (ix2 (0 : Fin 1) (0 : Fin 1)) (by
      rw [Shape.rowMajor_val_two, Shape.rowMajor_val_three]; rfl)

/-- The copy into the second result's block: every entry is the cell's one entry. -/
theorem pay2_apply (v : FVec Ideal S1x1 .f32) (j : S1x8x128.Idx) :
    k0_pay2 (F := Ideal) v j = v (ix2 (0 : Fin 1) (0 : Fin 1)) := by
  unfold k0_pay2
  refine (broadcastTo_apply _ _ j (ix3 (0 : Fin 1) (0 : Fin 1) (0 : Fin 1)) (fun a => ?_)).trans ?_
  · match a with
    | ⟨0, _⟩ => rfl
    | ⟨1, _⟩ => rfl
    | ⟨2, _⟩ => rfl
  · exact shapeCast_apply _ _ _ (ix2 (0 : Fin 1) (0 : Fin 1)) (by
      rw [Shape.rowMajor_val_two, Shape.rowMajor_val_three]; rfl)

end Cert.KernelIdeal.Block

end
-- ==== Proof.BlockRead.lean ====
/-
  What the region finds in its arrays, and where a step's blocks sit in them.

  Before the region each argument (16 × 15 × 256 × 256) is viewed as a matrix of 61440 rows of 256 entries, the same
  entries in the same row-major order. Grid point `t` (core `t / 15`, step `t % 15`) loads rows `2048 t … 2048 t + 2047`
  of each matrix, and the core's result blocks sit at position `t / 15` of the two 2 × 8 × 128 results.
-/
import proofs.«160423_j50663434224037_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.StableHlo
open Idealize.ShloMosaic.Pipeline (Dat)

namespace Cert.KernelIdeal.Arrays

open Cert.KernelIdeal Cert.KernelIdeal.Gen Idealize.ShloMosaic.ValueIdx

variable {F : FTy → Type} [FloatOps F]
variable (m : (ℓ : Loc nD τ sig) → Buf (Elt F) ℓ)

/-- The first matrix the region finds is the first argument in row-major order. -/
theorem V_v0 (c : Dev nD) : (V m c main_v0 : S61440x256.Idx → Elt F .f32)
    = shapeCast S61440x256 (m ((c : Thread nD τ).loc main_arg0)) shapeCasts_S16x15x256x256_S61440x256 := by
  show StableHlo.after hostOps0 (fun b => m (c, b)) (Proc.devRef .tc main_v0) = _
  after_results
  rfl

/-- The second matrix is the second argument in row-major order. -/
theorem V_v1 (c : Dev nD) : (V m c main_v1 : S61440x256.Idx → Elt F .f32)
    = shapeCast S61440x256 (m ((c : Thread nD τ).loc main_arg1)) shapeCasts_S16x15x256x256_S61440x256 := by
  show StableHlo.after hostOps0 (fun b => m (c, b)) (Proc.devRef .tc main_v1) = _
  after_results
  rfl

/-- The third matrix is the third argument in row-major order. -/
theorem V_v2 (c : Dev nD) : (V m c main_v2 : S61440x256.Idx → Elt F .f32)
    = shapeCast S61440x256 (m ((c : Thread nD τ).loc main_arg2)) shapeCasts_S16x15x256x256_S61440x256 := by
  show StableHlo.after hostOps0 (fun b => m (c, b)) (Proc.devRef .tc main_v2) = _
  after_results
  rfl

/-- The printed index maps, decided over the grid: an input block's row-block number is the point's number, and a result
    block's position is the point's core. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val / 15 ∧ win0_3.index t (1 : Fin 3) = 0 ∧ win0_3.index t (2 : Fin 3) = 0
    ∧ win0_4.index t (0 : Fin 3) = t.val / 15 ∧ win0_4.index t (1 : Fin 3) = 0 ∧ win0_4.index t (2 : Fin 3) = 0 :=
  (by decide +kernel : ∀ t : Fin grid0.N, _)

/-- Row `r` of point `t`'s block is row `2048 t + r` of the matrix. -/
theorem row_lt (t : Fin cfg0.N) (r : Fin 2048) : t.val * 2048 + r.val < 61440 := by
  have h : t.val < 30 := lt_of_lt_of_eq t.isLt (show cfg0.N = 30 from N_0)
  omega

/-- Entry `(r, k)` of the first input's block at point `t`. -/
theorem iblk0_apply (c : Dev nD) (t : Fin cfg0.N) (r : Fin 2048) (k : Fin 256) :
    (iblk m c 0 t : Vec F S2048x256 .f32) (ix2 r k)
      = (V m c main_v0 : S61440x256.Idx → Elt F .f32) (ix2 ⟨t.val * 2048 + r.val, row_lt t r⟩ k) := by
  obtain ⟨e0, e1, -⟩ := index_facts t
  unfold iblk
  rw [View.read_apply]
  show V m c main_v0 _ = V m c main_v0 _
  refine congrArg (V m c main_v0) ?_
  funext a
  apply Fin.ext
  match a with
  | ⟨0, _⟩ => show win0_0.index t (0 : Fin 2) * 2048 + 1 * r.val = t.val * 2048 + r.val; omega
  | ⟨1, _⟩ => show win0_0.index t (1 : Fin 2) * 256 + 1 * k.val = k.val; omega

/-- Entry `(r, k)` of the second input's block at point `t`. -/
theorem iblk1_apply (c : Dev nD) (t : Fin cfg0.N) (r : Fin 2048) (k : Fin 256) :
    (iblk m c 1 t : Vec F S2048x256 .f32) (ix2 r k)
      = (V m c main_v1 : S61440x256.Idx → Elt F .f32) (ix2 ⟨t.val * 2048 + r.val, row_lt t r⟩ k) := by
  obtain ⟨-, -, e0, e1, -⟩ := index_facts t
  unfold iblk
  rw [View.read_apply]
  show V m c main_v1 _ = V m c main_v1 _
  refine congrArg (V m c main_v1) ?_
  funext a
  apply Fin.ext
  match a with
  | ⟨0, _⟩ => show win0_1.index t (0 : Fin 2) * 2048 + 1 * r.val = t.val * 2048 + r.val; omega
  | ⟨1, _⟩ => show win0_1.index t (1 : Fin 2) * 256 + 1 * k.val = k.val; omega

/-- Entry `(r, k)` of the third input's block at point `t`. -/
theorem iblk2_apply (c : Dev nD) (t : Fin cfg0.N) (r : Fin 2048) (k : Fin 256) :
    (iblk m c 2 t : Vec F S2048x256 .f32) (ix2 r k)
      = (V m c main_v2 : S61440x256.Idx → Elt F .f32) (ix2 ⟨t.val * 2048 + r.val, row_lt t r⟩ k) := by
  obtain ⟨-, -, -, -, e0, e1, -⟩ := index_facts t
  unfold iblk
  rw [View.read_apply]
  show V m c main_v2 _ = V m c main_v2 _
  refine congrArg (V m c main_v2) ?_
  funext a
  apply Fin.ext
  match a with
  | ⟨0, _⟩ => show win0_2.index t (0 : Fin 2) * 2048 + 1 * r.val = t.val * 2048 + r.val; omega
  | ⟨1, _⟩ => show win0_2.index t (1 : Fin 2) * 256 + 1 * k.val = k.val; omega

end Cert.KernelIdeal.Arrays

end
-- ==== Proof.Totals.lean ====
/-
  The running sums in closed form, and the two per-core totals as the total and the count.

  After step `i` of core `p` (grid point `p * 15 + i`) the first scratch cell holds the sum of the block errors of the
  core's steps `0 … i` and the second the sum of their block counts: by induction on `i`, the first step starting from
  zero and every later step adding its block to what the step before left. After the core's last step its result
  blocks hold the core's totals in every entry. A step's block is rows `2048 (p * 15 + i) …` of the three matrices, so
  the two cores' totals together run over every row of the matrices once, and the matrices hold the arguments' entries
  in row-major order: the totals add up to the weighted absolute error over every entry, and to the number of nonzero
  targets. Only the commutativity and associativity of addition on the extended reals are used.
-/
import proofs.«160423_j50663434224037_2_alg».proof.Proof.Running
import proofs.«160423_j50663434224037_2_alg».proof.Proof.Payload
import proofs.«160423_j50663434224037_2_alg».proof.Proof.BlockRead

noncomputable section

open Idealize.ShloMosaic Idealize.ShloMosaic.TcCoe Idealize.SL.Sem
open Idealize.ShloMosaic.Pipeline (Dat)

namespace Cert.KernelIdeal.Totals

open Cert.KernelIdeal Cert.KernelIdeal.Gen Cert.KernelIdeal.Steps Cert.KernelIdeal.Block Cert.KernelIdeal.Arrays
open Cert.MaskedLoss Idealize.ShloMosaic.ValueIdx

variable (m : (ℓ : Loc nD τ sig) → Buf (Elt Ideal) ℓ)

/-- The weighted absolute error of the block grid point `n` loads (zero past the grid). -/
def stepErr (c : Dev nD) (n : ℕ) : EReal :=
  if h : n < cfg0.N then blockErr (iblk m c 0 ⟨n, h⟩) (iblk m c 1 ⟨n, h⟩) (iblk m c 2 ⟨n, h⟩) else 0

/-- The count of nonzero targets of the block grid point `n` loads (zero past the grid). -/
def stepCount (c : Dev nD) (n : ℕ) : EReal :=
  if h : n < cfg0.N then blockCount (iblk m c 1 ⟨n, h⟩) else 0

theorem stepErr_of_lt (c : Dev nD) (n : ℕ) (h : n < cfg0.N) :
    stepErr m c n = blockErr (iblk m c 0 ⟨n, h⟩) (iblk m c 1 ⟨n, h⟩) (iblk m c 2 ⟨n, h⟩) := dif_pos h

theorem stepCount_of_lt (c : Dev nD) (n : ℕ) (h : n < cfg0.N) :
    stepCount m c n = blockCount (iblk m c 1 ⟨n, h⟩) := dif_pos h

/-- THE RUNNING SUMS after step `i` of core `p`. -/
theorem scratch_closed (c : Dev nD) (p : ℕ) : ∀ (i : ℕ) (hi : i < 15) (h : p * 15 + i < cfg0.N) (y : S1x1.Idx),
    (outsAt0 m c (p * 15 + i) h).2.2.1 y = ∑ j ∈ Finset.range (i + 1), stepErr m c (p * 15 + j)
    ∧ (outsAt0 m c (p * 15 + i) h).2.2.2 y = ∑ j ∈ Finset.range (i + 1), stepCount m c (p * 15 + j)
  | 0, hi, h, y => by
    obtain ⟨e0, e1⟩ := step_first m c ⟨p * 15 + 0, h⟩ (by show (p * 15 + 0) % 15 = 0; omega)
      (by show ¬(p * 15 + 0) % 15 = 14; omega)
    refine ⟨(congrFun e0 y).trans ?_, (congrFun e1 y).trans ?_⟩
    · refine (pay6_apply (iblk m c 0 ⟨p * 15 + 0, h⟩) (iblk m c 1 ⟨p * 15 + 0, h⟩) (iblk m c 2 ⟨p * 15 + 0, h⟩) k0_pay3 y).trans ?_
      rw [pay3_apply, zero_add, Finset.sum_range_one, stepErr_of_lt m c _ h]
    · refine (pay7_apply (iblk m c 1 ⟨p * 15 + 0, h⟩) k0_pay4 y).trans ?_
      rw [pay4_apply, zero_add, Finset.sum_range_one, stepCount_of_lt m c _ h]
  | i + 1, hi, h, y => by
    have hprev : p * 15 + i < cfg0.N := Nat.lt_of_succ_lt h
    obtain ⟨ih0, ih1⟩ := scratch_closed c p i (by omega) hprev y
    have h0 : ¬(p * 15 + (i + 1)) % 15 = 0 := by omega
    have hs : (outsAt0 m c (p * 15 + (i + 1)) h).2.2.1
          = k0_pay6 (iblk m c 0 ⟨p * 15 + (i + 1), h⟩) (iblk m c 1 ⟨p * 15 + (i + 1), h⟩) (iblk m c 2 ⟨p * 15 + (i + 1), h⟩)
              (outsAt0 m c (p * 15 + i) hprev).2.2.1
        ∧ (outsAt0 m c (p * 15 + (i + 1)) h).2.2.2
          = k0_pay7 (iblk m c 1 ⟨p * 15 + (i + 1), h⟩) (outsAt0 m c (p * 15 + i) hprev).2.2.2 := by
      by_cases h1 : (p * 15 + (i + 1)) % 15 = 14
      · exact ⟨(step_last m c ⟨p * 15 + (i + 1), h⟩ h0 h1).1, (step_last m c ⟨p * 15 + (i + 1), h⟩ h0 h1).2.1⟩
      · exact step_mid m c ⟨p * 15 + (i + 1), h⟩ h0 h1
    refine ⟨(congrFun hs.1 y).trans ?_, (congrFun hs.2 y).trans ?_⟩
    · refine (pay6_apply (iblk m c 0 ⟨p * 15 + (i + 1), h⟩) (iblk m c 1 ⟨p * 15 + (i + 1), h⟩) (iblk m c 2 ⟨p * 15 + (i + 1), h⟩)
        (outsAt0 m c (p * 15 + i) hprev).2.2.1 y).trans ?_
      rw [ih0, Finset.sum_range_succ _ (i + 1), stepErr_of_lt m c _ h]
    · refine (pay7_apply (iblk m c 1 ⟨p * 15 + (i + 1), h⟩) (outsAt0 m c (p * 15 + i) hprev).2.2.2 y).trans ?_
      rw [ih1, Finset.sum_range_succ _ (i + 1), stepCount_of_lt m c _ h]

/-- One core's total of the block errors. -/
def coreErr (c : Dev nD) (p : ℕ) : EReal := ∑ k ∈ Finset.range 15, stepErr m c (p * 15 + k)

/-- One core's total of the block counts. -/
def coreCount (c : Dev nD) (p : ℕ) : EReal := ∑ k ∈ Finset.range 15, stepCount m c (p * 15 + k)

/-- THE RESULT BLOCKS after core `p`'s last step: the core's totals in every entry. -/
theorem out_closed (c : Dev nD) (p : ℕ) (h : p * 15 + 14 < cfg0.N) (j : S1x8x128.Idx) :
    (outsAt0 m c (p * 15 + 14) h).1 j = coreErr m c p ∧ (outsAt0 m c (p * 15 + 14) h).2.1 j = coreCount m c p := by
  have h0 : ¬(p * 15 + 14) % 15 = 0 := by omega
  have h1 : (p * 15 + 14) % 15 = 14 := by omega
  obtain ⟨s0, s1, o3, o4⟩ := step_last m c ⟨p * 15 + 14, h⟩ h0 h1
  obtain ⟨c0, c1⟩ := scratch_closed m c p 14 (by omega) h (ix2 (0 : Fin 1) (0 : Fin 1))
  refine ⟨(congrFun o3 j).trans ?_, (congrFun o4 j).trans ?_⟩
  · refine (pay1_apply _ j).trans ?_
    exact (congrFun s0 (ix2 (0 : Fin 1) (0 : Fin 1))).symm.trans c0
  · refine (pay2_apply _ j).trans ?_
    exact (congrFun s1 (ix2 (0 : Fin 1) (0 : Fin 1))).symm.trans c1

/-! ## The totals over the matrices, and over the arguments -/

/-- A step's block error over the rows it loads from the three matrices. -/
theorem stepErr_rows (c : Dev nD) (n : ℕ) (h : n < cfg0.N) :
    stepErr m c n = ∑ r : Fin 2048, ∑ k : Fin 256,
      err ((V m c main_v0 : S61440x256.Idx → EReal) (ix2 ⟨n * 2048 + r.val, row_lt ⟨n, h⟩ r⟩ k))
        ((V m c main_v1 : S61440x256.Idx → EReal) (ix2 ⟨n * 2048 + r.val, row_lt ⟨n, h⟩ r⟩ k))
        ((V m c main_v2 : S61440x256.Idx → EReal) (ix2 ⟨n * 2048 + r.val, row_lt ⟨n, h⟩ r⟩ k)) := by
  rw [stepErr_of_lt m c n h]
  unfold blockErr
  refine Finset.sum_congr rfl fun r _ => Finset.sum_congr rfl fun k _ => ?_
  rw [iblk0_apply m c ⟨n, h⟩ r k, iblk1_apply m c ⟨n, h⟩ r k, iblk2_apply m c ⟨n, h⟩ r k]

/-- A step's block count over the rows it loads from the second matrix. -/
theorem stepCount_rows (c : Dev nD) (n : ℕ) (h : n < cfg0.N) :
    stepCount m c n = ∑ r : Fin 2048, ∑ k : Fin 256,
      nz ((V m c main_v1 : S61440x256.Idx → EReal) (ix2 ⟨n * 2048 + r.val, row_lt ⟨n, h⟩ r⟩ k)) := by
  rw [stepCount_of_lt m c n h]
  unfold blockCount
  refine Finset.sum_congr rfl fun r _ => Finset.sum_congr rfl fun k _ => ?_
  rw [iblk1_apply m c ⟨n, h⟩ r k]

/-- A sum over every entry of a matrix, grouped by core, step, row of the step's block, and column. -/
theorem sum_matrix (g : S61440x256.Idx → EReal) :
    ∑ q, g q = ∑ p : Fin 2, ∑ j : Fin 15, ∑ r : Fin 2048, ∑ k : Fin 256,
      g (ix2 ⟨(p.val * 15 + j.val) * 2048 + r.val, Cert.Lib.BlockSum.row_lt (by norm_num : 2 * 15 * 2048 = 61440) p j r⟩ k) := by
  rw [sum_idx2 g, Cert.Lib.BlockSum.sum_rows 2 15 2048 (by norm_num : 2 * 15 * 2048 = 61440) fun x => ∑ k : Fin 256, g (ix2 x k)]

theorem grid_lt (p : Fin 2) (j : Fin 15) : p.val * 15 + j.val < cfg0.N :=
  lt_of_lt_of_eq (Cert.Lib.BlockSum.blk_lt p j) (show 2 * 15 = cfg0.N from N_0.symm)

/-- The two cores' error totals together are the error summed over every entry of the matrices. -/
theorem coreErr_sum (c : Dev nD) :
    coreErr m c 0 + coreErr m c 1 = ∑ q : S61440x256.Idx,
      err ((V m c main_v0 : S61440x256.Idx → EReal) q) ((V m c main_v1 : S61440x256.Idx → EReal) q)
        ((V m c main_v2 : S61440x256.Idx → EReal) q) := by
  rw [sum_matrix, Fin.sum_univ_two]
  unfold coreErr
  rw [Finset.sum_range, Finset.sum_range]
  refine congrArg₂ (· + ·) (Finset.sum_congr rfl fun j _ => ?_) (Finset.sum_congr rfl fun j _ => ?_)
  · exact stepErr_rows m c _ (grid_lt 0 j)
  · exact stepErr_rows m c _ (grid_lt 1 j)

/-- The two cores' count totals together are the indicator summed over every entry of the second matrix. -/
theorem coreCount_sum (c : Dev nD) :
    coreCount m c 0 + coreCount m c 1 = ∑ q : S61440x256.Idx, nz ((V m c main_v1 : S61440x256.Idx → EReal) q) := by
  rw [sum_matrix, Fin.sum_univ_two]
  unfold coreCount
  rw [Finset.sum_range, Finset.sum_range]
  refine congrArg₂ (· + ·) (Finset.sum_congr rfl fun j _ => ?_) (Finset.sum_congr rfl fun j _ => ?_)
  · exact stepCount_rows m c _ (grid_lt 0 j)
  · exact stepCount_rows m c _ (grid_lt 1 j)

/-- A sum over the matrix view of an array is the sum over the array: the view holds the same entries. -/
theorem sum_view (x : S16x15x256x256.Idx → EReal) (y : S16x15x256x256.Idx → EReal) (z : S16x15x256x256.Idx → EReal)
    (g : EReal → EReal → EReal → EReal) :
    ∑ q : S61440x256.Idx, g (shapeCast S61440x256 x shapeCasts_S16x15x256x256_S61440x256 q)
        (shapeCast S61440x256 y shapeCasts_S16x15x256x256_S61440x256 q)
        (shapeCast S61440x256 z shapeCasts_S16x15x256x256_S61440x256 q)
      = ∑ i, g (x i) (y i) (z i) :=
  Equiv.sum_comp (Shape.reshapeEquiv shapeCasts_S16x15x256x256_S61440x256) fun i => g (x i) (y i) (z i)

/-- THE TOTAL: the two cores' error totals add up to the weighted absolute error over every entry of the arguments. -/
theorem coreErr_total (c : Dev nD) :
    coreErr m c 0 + coreErr m c 1
      = total (m ((c : Thread nD τ).loc main_arg0)) (m ((c : Thread nD τ).loc main_arg1)) (m ((c : Thread nD τ).loc main_arg2)) := by
  rw [coreErr_sum, V_v0, V_v1, V_v2]
  exact sum_view _ _ _ err

/-- THE COUNT: the two cores' count totals add up to the number of nonzero targets. -/
theorem coreCount_total (c : Dev nD) :
    coreCount m c 0 + coreCount m c 1 = ((Cert.MaskedLoss.count (m ((c : Thread nD τ).loc main_arg1)) : ℝ) : EReal) := by
  rw [coreCount_sum, V_v1, ← sum_nz]
  exact sum_view (m ((c : Thread nD τ).loc main_arg1)) (m ((c : Thread nD τ).loc main_arg1)) (m ((c : Thread nD τ).loc main_arg1))
    fun a _ _ => nz a

end Cert.KernelIdeal.Totals

end
-- ==== Proof.Result.lean ====
/-
  The kernel's result.

  After the region the first result array holds, at every entry of position `p`, core `p`'s total of the block errors, and
  the second core `p`'s total of the block counts: each position's block is written back once, after the core's last
  step, and the two blocks cover the array. The lines after the region take entry (p, 0, 0) of each array, add the two
  cores' totals, and form the quotient; with the two totals identified as the total error and the count this is the
  loss.
-/
import proofs.«160423_j50663434224037_2_alg».proof.Proof.Totals
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Result

open Cert.KernelIdeal Cert.KernelIdeal.Gen Cert.KernelIdeal.Arrays Cert.KernelIdeal.Totals
open Cert.MaskedLoss Idealize.ShloMosaic.ValueIdx

/-! ## The lines after the region, as one function of the two result arrays -/

section Tail
variable {F : FTy → Type} [FloatOps F]

/-- Entry (p, 0, 0) of a result array for the two cores `p`, added up. -/
def partialSum (A : FVec F S2x8x128 .f32) : FVec F S_ .f32 :=
  Host.reduceAdd (shapeCast S2 (extractStridedSlice S2x1x1 ![0, 0, 0] A slices_S2x8x128_S2x1x1_0_0_0) shapeCasts_S2x1x1_S2)
    (constant S_ .f32 0x00000000#32) reducesTo_S2_S_d0 h_S_

/-- The quotient the lines after the region form from the two result arrays. -/
def kernelTail (A3 A4 : FVec F S2x8x128 .f32) : FVec F S_ .f32 :=
  Host.divf
    (select (cmpf .oeq (partialSum A4) (constant S_ .f32 0x00000000#32)) (constant S_ .f32 0x00000000#32) (partialSum A3))
    (select (cmpf .oeq (partialSum A4) (constant S_ .f32 0x00000000#32)) (constant S_ .f32 0x3F800000#32) (partialSum A4))

end Tail

/-- A sum over the indices of a vector is the sum over its coordinate. -/
theorem sum_idx1 {M : Type*} [AddCommMonoid M] {n : ℕ} (f : (⟨1, ![n]⟩ : Shape).Idx → M) :
    ∑ i, f i = ∑ a : Fin n, f (ix1 a) :=
  (Equiv.sum_comp (⟨fun a => ix1 a, fun i => i 0, fun a => rfl, fun i => (eq_ix1 i).symm⟩ :
    Fin n ≃ (⟨1, ![n]⟩ : Shape).Idx) f).symm

/-- At the ideal values the two entries added up, the zero they start from dropped. -/
theorem partialSum_apply (A : FVec Ideal S2x8x128 .f32) (i : S_.Idx) :
    partialSum (F := Ideal) A i
      = A (ix3 (0 : Fin 2) (0 : Fin 8) (0 : Fin 128)) + A (ix3 (1 : Fin 2) (0 : Fin 8) (0 : Fin 128)) := by
  unfold partialSum
  simp only [Host.reduceAdd, Ideal.hostReduceAdd_def]
  refine (Ideal.hostReduceAdd_total reducesTo_S2_S_d0 (fun b => b.elim0) _ _ i).trans ?_
  rw [sum_idx1, Fin.sum_univ_two]
  show Ideal.ofBits .f32 0x00000000#32 + (_ + _) = _
  rw [Ideal.ofBits_zero_f32, zero_add]
  refine congrArg₂ (· + ·) ?_ ?_
  · refine (shapeCast_apply _ _ (ix1 (0 : Fin 2)) (ix3 (0 : Fin 2) (0 : Fin 1) (0 : Fin 1)) (by
      rw [Shape.rowMajor_val_one, Shape.rowMajor_val_three]; rfl)).trans ?_
    exact extractStridedSlice_apply _ _ _ _ (ix3 (0 : Fin 2) (0 : Fin 8) (0 : Fin 128)) (fun a => by
      match a with
      | ⟨0, _⟩ => rfl
      | ⟨1, _⟩ => rfl
      | ⟨2, _⟩ => rfl)
  · refine (shapeCast_apply _ _ (ix1 (1 : Fin 2)) (ix3 (1 : Fin 2) (0 : Fin 1) (0 : Fin 1)) (by
      rw [Shape.rowMajor_val_one, Shape.rowMajor_val_three]; rfl)).trans ?_
    exact extractStridedSlice_apply _ _ _ _ (ix3 (1 : Fin 2) (0 : Fin 8) (0 : Fin 128)) (fun a => by
      match a with
      | ⟨0, _⟩ => rfl
      | ⟨1, _⟩ => rfl
      | ⟨2, _⟩ => rfl)

variable (m : (ℓ : Loc nD τ sig) → Buf (Elt Ideal) ℓ) (ρ : Dev nD → PrngReg)

/-! ## The two result arrays after the region -/

/-- The first result array after the region: core `p`'s error total at every entry of position `p`. -/
def finalErr (c : Dev nD) : S2x8x128.Idx → EReal := fun i => coreErr m c (i 0).val

/-- The second result array after the region: core `p`'s count total at every entry of position `p`. -/
def finalCount (c : Dev nD) : S2x8x128.Idx → EReal := fun i => coreCount m c (i 0).val

/-- The result blocks after the last step of the core a point belongs to, the point given by its number. -/
theorem out_last (c : Dev nD) (n : ℕ) (h : n < cfg0.N) (h14 : n % 15 = 14) (j : S1x8x128.Idx) :
    (outsAt0 m c n h).1 j = coreErr m c (n / 15) ∧ (outsAt0 m c n h).2.1 j = coreCount m c (n / 15) := by
  obtain ⟨p, rfl⟩ : ∃ p, n = p * 15 + 14 := ⟨n / 15, by omega⟩
  have e : (p * 15 + 14) / 15 = p := by omega
  rw [e]
  exact out_closed m c p h j

/-- WHAT A CORE'S LAST STEP WRITES BACK into result 1: its block of the array whose every entry at position `p` is core `p`'s total. -/
theorem flushed3_eq (c : Dev nD) (t : Fin cfg0.N) (hf : (cfg0.win 3).flush t = true) :
    (dats m 0 c).flushed 3 t = ((cfg0.win 3).blk t).view.read (Elt Ideal) (finalErr m c) := by
  have h14 : t.val % 15 = 14 := (flush0_3 t).mp hf
  have e0 : win0_3.index t (0 : Fin 3) = t.val / 15 := (index_facts t).2.2.2.2.2.2.1
  show (cfg0.win 3).cut (grid0.coords t) ((dats m 0 c).after 3 t) = _
  rw [after0_3]
  funext y
  show (outsAt0 m c t.val t.isLt).1 y = finalErr m c (((cfg0.win 3).blk t).view.emb y)
  refine ((out_last m c t.val t.isLt h14 y).1).trans ?_
  show coreErr m c (t.val / 15) = coreErr m c ((((cfg0.win 3).blk t).view.emb y) 0).val
  refine congrArg (coreErr m c) ?_
  show t.val / 15 = win0_3.index t (0 : Fin 3) * 1 + 1 * (y 0).val
  have hy : (y 0).val < 1 := (y 0).isLt
  omega

/-- An index of result 1 is in point `t`'s block iff each coordinate is in the block's range on its axis. -/
theorem mem_blk3 (t : Fin cfg0.N) (i : S2x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v3_0).slice (win0_3.rect t)).set ↔ _
  rw [View.set_slice_whole, Rect.mem_set_unit]
  exact Iff.rfl

/-- Every index of result 1 is in the block some core's last step writes back: position `p` in core `p`'s. -/
theorem cover3 (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hlt : (i 0).val * 15 + 14 < cfg0.N := lt_of_lt_of_eq (by omega : (i 0).val * 15 + 14 < 30) (show 30 = cfg0.N from N_0.symm)
  have ht : ((⟨(i 0).val * 15 + 14, hlt⟩ : Fin cfg0.N)).val = (i 0).val * 15 + 14 := rfl
  obtain ⟨-, -, -, -, -, -, a0, a1, a2, b0, b1, b2⟩ := index_facts ⟨(i 0).val * 15 + 14, hlt⟩
  refine ⟨⟨(i 0).val * 15 + 14, hlt⟩, (flush0_3 _).mpr (by show ((i 0).val * 15 + 14) % 15 = 14; omega), ?_⟩
  rw [mem_blk3]
  intro a
  match a with
  | ⟨0, _⟩ =>
    show win0_3.index ⟨(i 0).val * 15 + 14, hlt⟩ (0 : Fin 3) * 1 ≤ (i 0).val
      ∧ (i 0).val < win0_3.index ⟨(i 0).val * 15 + 14, hlt⟩ (0 : Fin 3) * 1 + 1
    omega
  | ⟨1, _⟩ =>
    show win0_3.index ⟨(i 0).val * 15 + 14, hlt⟩ (1 : Fin 3) * 8 ≤ (i 1).val
      ∧ (i 1).val < win0_3.index ⟨(i 0).val * 15 + 14, hlt⟩ (1 : Fin 3) * 8 + 8
    omega
  | ⟨2, _⟩ =>
    show win0_3.index ⟨(i 0).val * 15 + 14, hlt⟩ (2 : Fin 3) * 128 ≤ (i 2).val
      ∧ (i 2).val < win0_3.index ⟨(i 0).val * 15 + 14, hlt⟩ (2 : Fin 3) * 128 + 128
    omega

/-- RESULT 1 AFTER THE REGION. -/
theorem final3 (c : Dev nD) : (dats m 0 c).arrAt 3 cfg0.N = finalErr m c :=
  (dats m 0 c).arrAt_eq_of_cover 3 (finalErr m c) (flushed3_eq m c) cover3

/-- WHAT A CORE'S LAST STEP WRITES BACK into result 2: its block of the array whose every entry at position `p` is core `p`'s total. -/
theorem flushed4_eq (c : Dev nD) (t : Fin cfg0.N) (hf : (cfg0.win 4).flush t = true) :
    (dats m 0 c).flushed 4 t = ((cfg0.win 4).blk t).view.read (Elt Ideal) (finalCount m c) := by
  have h14 : t.val % 15 = 14 := (flush0_4 t).mp hf
  have e0 : win0_4.index t (0 : Fin 3) = t.val / 15 := (index_facts t).2.2.2.2.2.2.2.2.2.1
  show (cfg0.win 4).cut (grid0.coords t) ((dats m 0 c).after 4 t) = _
  rw [after0_4]
  funext y
  show (outsAt0 m c t.val t.isLt).2.1 y = finalCount m c (((cfg0.win 4).blk t).view.emb y)
  refine ((out_last m c t.val t.isLt h14 y).2).trans ?_
  show coreCount m c (t.val / 15) = coreCount m c ((((cfg0.win 4).blk t).view.emb y) 0).val
  refine congrArg (coreCount m c) ?_
  show t.val / 15 = win0_4.index t (0 : Fin 3) * 1 + 1 * (y 0).val
  have hy : (y 0).val < 1 := (y 0).isLt
  omega

/-- An index of result 2 is in point `t`'s block iff each coordinate is in the block's range on its axis. -/
theorem mem_blk4 (t : Fin cfg0.N) (i : S2x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v3_1).slice (win0_4.rect t)).set ↔ _
  rw [View.set_slice_whole, Rect.mem_set_unit]
  exact Iff.rfl

/-- Every index of result 2 is in the block some core's last step writes back: position `p` in core `p`'s. -/
theorem cover4 (i : S2x8x128.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  have hlt : (i 0).val * 15 + 14 < cfg0.N := lt_of_lt_of_eq (by omega : (i 0).val * 15 + 14 < 30) (show 30 = cfg0.N from N_0.symm)
  have ht : ((⟨(i 0).val * 15 + 14, hlt⟩ : Fin cfg0.N)).val = (i 0).val * 15 + 14 := rfl
  obtain ⟨-, -, -, -, -, -, a0, a1, a2, b0, b1, b2⟩ := index_facts ⟨(i 0).val * 15 + 14, hlt⟩
  refine ⟨⟨(i 0).val * 15 + 14, hlt⟩, (flush0_4 _).mpr (by show ((i 0).val * 15 + 14) % 15 = 14; omega), ?_⟩
  rw [mem_blk4]
  intro a
  match a with
  | ⟨0, _⟩ =>
    show win0_4.index ⟨(i 0).val * 15 + 14, hlt⟩ (0 : Fin 3) * 1 ≤ (i 0).val
      ∧ (i 0).val < win0_4.index ⟨(i 0).val * 15 + 14, hlt⟩ (0 : Fin 3) * 1 + 1
    omega
  | ⟨1, _⟩ =>
    show win0_4.index ⟨(i 0).val * 15 + 14, hlt⟩ (1 : Fin 3) * 8 ≤ (i 1).val
      ∧ (i 1).val < win0_4.index ⟨(i 0).val * 15 + 14, hlt⟩ (1 : Fin 3) * 8 + 8
    omega
  | ⟨2, _⟩ =>
    show win0_4.index ⟨(i 0).val * 15 + 14, hlt⟩ (2 : Fin 3) * 128 ≤ (i 2).val
      ∧ (i 2).val < win0_4.index ⟨(i 0).val * 15 + 14, hlt⟩ (2 : Fin 3) * 128 + 128
    omega

/-- RESULT 2 AFTER THE REGION. -/
theorem final4 (c : Dev nD) : (dats m 0 c).arrAt 4 cfg0.N = finalCount m c :=
  (dats m 0 c).arrAt_eq_of_cover 4 (finalCount m c) (flushed4_eq m c) cover4

/-! ## The result -/

/-- The quotient of the two final arrays is the loss of the total error and of the count. -/
theorem tail_eq (c : Dev nD) :
    kernelTail (F := Ideal) (finalErr m c) (finalCount m c)
      = loss (total (m ((c : Thread nD τ).loc main_arg0)) (m ((c : Thread nD τ).loc main_arg1)) (m ((c : Thread nD τ).loc main_arg2)))
          ((Cert.MaskedLoss.count (m ((c : Thread nD τ).loc main_arg1)) : ℝ) : EReal) := by
  have hL : partialSum (F := Ideal) (finalErr m c) = fun _ =>
      total (m ((c : Thread nD τ).loc main_arg0)) (m ((c : Thread nD τ).loc main_arg1)) (m ((c : Thread nD τ).loc main_arg2)) :=
    funext fun i => (partialSum_apply _ i).trans (coreErr_total m c)
  have hN : partialSum (F := Ideal) (finalCount m c) = fun _ =>
      ((Cert.MaskedLoss.count (m ((c : Thread nD τ).loc main_arg1)) : ℝ) : EReal) :=
    funext fun i => (partialSum_apply _ i).trans (coreCount_total m c)
  unfold kernelTail
  rw [hL, hN]
  rfl

/-- The first result array as the lines after the region find it. -/
theorem arr3_eq (c : Dev nD) :
    Pipeline.withArrays (cfgs 0).spec c (V0 m c) (fun w => (dats m 0 c).arrAt w (cfgs 0).N) (Proc.devRef .tc main_v3_0)
      = finalErr m c :=
  (Pipeline.withArrays_arr spec0 launch0.win.arr_inj c _ _ 3).trans (final3 m c)

/-- The second result array as the lines after the region find it. -/
theorem arr4_eq (c : Dev nD) :
    Pipeline.withArrays (cfgs 0).spec c (V0 m c) (fun w => (dats m 0 c).arrAt w (cfgs 0).N) (Proc.devRef .tc main_v3_1)
      = finalCount m c :=
  (Pipeline.withArrays_arr spec0 launch0.win.arr_inj c _ _ 4).trans (final4 m c)

/-- The lines after the region leave, in the result buffer, the quotient of the two final arrays: the eleven operations
    and the two outlined selects read back, the two arrays kept as variables while the operations are put in order. -/
theorem tail_read (c : Dev nD) :
    Pipeline.afterTail₀ cfgs (dats m) 0 (V0 m) [hostOps1, hostOps1_1, hostOps1_2, hostOps1_3, hostOps1_4] c main_v14
      = kernelTail (F := Ideal) (finalErr m c) (finalCount m c) := by
  rw [← arr3_eq m c, ← arr4_eq m c]
  unfold Pipeline.afterTail₀
  simp only [hostOps1, hostOps1_1, hostOps1_2, hostOps1_3, hostOps1_4, List.flatten_cons, List.flatten_nil, List.append_nil,
    List.cons_append, List.nil_append]
  after_results
  generalize Pipeline.withArrays (cfgs 0).spec c (V0 m c) (fun w => (dats m 0 c).arrAt w (cfgs 0).N) (Proc.devRef .tc main_v3_0) = A3
  generalize Pipeline.withArrays (cfgs 0).spec c (V0 m c) (fun w => (dats m 0 c).arrAt w (cfgs 0).N) (Proc.devRef .tc main_v3_1) = A4
  rfl

/-- THE RUN, READ: every weakly fair execution ends with the result at the loss of the total error and of the count of
    the argument arrays, and the arguments unchanged. -/
theorem run : θ_run defs (onTc (τ := τ) (main (F := Ideal))) ⟨m, fun _ => 0, ρ⟩ fun r => ∀ c : Dev nD,
      r.2.mem ((c.tc : Thread nD τ).loc main_v14)
        = loss (total (m ((c.tc : Thread nD τ).loc main_arg0)) (m ((c.tc : Thread nD τ).loc main_arg1)) (m ((c.tc : Thread nD τ).loc main_arg2)))
            ((Cert.MaskedLoss.count (m ((c.tc : Thread nD τ).loc main_arg1)) : ℝ) : EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v14 (Pipeline.mem_restRefs_of main_v14 (by decide) (by decide))).trans ((tail_read m c).trans (tail_eq m c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩)
    (run_main m ρ)

end Cert.KernelIdeal.Result

end
-- ==== Proof.lean ====
/-
  The masked mean absolute error, computed by a two-core streaming reduction, against its one-line reference.

  Both programs return `(N = 0 ? 0 : L) / (N = 0 ? 1 : N)`, where `L` is the sum of `|output - label0| * label1` over all
  16 × 15 × 256 × 256 entries and `N` the number of entries with `label0 ≠ 0`.

  The kernel views each argument as 61440 rows of 256 entries and gives each of two cores half the rows, in 15 blocks of
  2048 rows. A step sums its block along the rows and then down them and adds the result to a running cell (one cell for
  the error, one for the count of nonzero targets, taken as ones and zeros); the core's first step starts the cells from
  zero and its last step copies them into the core's result blocks; the host adds the two cores' totals and forms the
  quotient. The reference sums the error in one reduction and counts with 32-bit integers, converting the count to a real
  number at the end.

  Over the extended reals a sum does not depend on its order or grouping, so the kernel's two totals are the total error
  and the count; the count is below 2^31, so the integer count does not wrap and converts to the same real number; and
  the two tests `N = 0` agree. Neither program's inputs need to be finite for this, so the precondition is not opened.
  No floating-point rewrite was applied to the kernel, so the idealization's own claim is trivial.
-/
import proofs.«160423_j50663434224037_2_alg».proof.Defs
import proofs.«160423_j50663434224037_2_alg».proof.Proof.Gen.Kernel
import proofs.«160423_j50663434224037_2_alg».proof.Proof.Gen.Kernel.Skeleton
import proofs.«160423_j50663434224037_2_alg».proof.Proof.Gen.Kernel.Launch
import proofs.«160423_j50663434224037_2_alg».proof.Proof.Gen.Kernel.Points
import proofs.«160423_j50663434224037_2_alg».proof.Proof.Gen.Kernel.Frame
import proofs.«160423_j50663434224037_2_alg».proof.Proof.Gen.KernelIdeal
import proofs.«160423_j50663434224037_2_alg».proof.Proof.Gen.KernelIdeal.Skeleton
import proofs.«160423_j50663434224037_2_alg».proof.Proof.Gen.KernelIdeal.Launch
import proofs.«160423_j50663434224037_2_alg».proof.Proof.Gen.KernelIdeal.Points
import proofs.«160423_j50663434224037_2_alg».proof.Proof.Gen.KernelIdeal.Frame
import proofs.«160423_j50663434224037_2_alg».proof.Proof.Gen.ReferenceIdeal
import proofs.«160423_j50663434224037_2_alg».proof.Proof.Gen.Pre_finite_inputs
import proofs.«160423_j50663434224037_2_alg».proof.Proof.RefValue
import proofs.«160423_j50663434224037_2_alg».proof.Proof.Result
import Idealize.ShloMosaic.Adequacy
import Idealize.ShloMosaic.Init

noncomputable section

namespace Cert.Proof

open Idealize.ShloMosaic Idealize.SL.Sem Cert.MaskedLoss

/-- The kernel as printed runs, faults nowhere and leaves its arguments unchanged. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- No operation of the kernel was rewritten when it was read at the ideal values. -/
theorem preserves : Cert.preserves_Kernel_KernelIdeal := trivial

/-- From arguments that agree, the kernel ends at the loss of the total error and of the count, and so does the
    reference. -/
theorem algebraic : Cert.algebraic_KernelIdeal_ReferenceIdeal := by
  intro m ρ m' ρ' _ hagree
  refine ⟨fun c => loss
      (total (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      ((Cert.MaskedLoss.count (m ((c.tc : Thread Cert.KernelIdeal.nD Cert.KernelIdeal.τ).loc Cert.KernelIdeal.main_arg1)) : ℝ) : EReal),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
